-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S256x128 .f32) (main_arg3 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 8
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S256x128, .f32⟩
  | .hbm, ⟨4, _⟩ => ⟨S10000x128, .bf16⟩
  | .hbm, ⟨5, _⟩ => ⟨S10000x128, .f32⟩
  | .hbm, ⟨6, _⟩ => ⟨S10000x128, .bf16⟩
  | .hbm, ⟨7, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S400x128, .f32⟩
  | .local _ .vmem, ⟨7, _⟩ => ⟨S400x128, .f32⟩
  | .local _ .vmem, ⟨8, _⟩ => ⟨S400x10000, .f32⟩
  | .local _ .vmem, ⟨9, _⟩ => ⟨S400x10000, .f32⟩
  | .local _ .vmem, ⟨10, _⟩ => ⟨S10000x128, .bf16⟩
  | .local _ .vmem, ⟨11, _⟩ => ⟨S400x128, .f32⟩
  | .local _ .vmem, ⟨12, _⟩ => ⟨S400x128, .f32⟩
  | .local _ .vmem, ⟨13, _⟩ => ⟨S256x128, .f32⟩
  | .local _ .vmem, ⟨14, _⟩ => ⟨S400x128, .f32⟩
  | .local _ .vmem, ⟨15, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  shapeCasts_S400x128_S400x128 : S400x128.ShapeCasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S10000x256 : Shape := ⟨2, ![10000, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S256x128, .f32⟩
  | .hbm, ⟨4, _⟩ => ⟨S10000x128, .f32⟩
  | .hbm, ⟨5, _⟩ => ⟨S10000x256, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x256, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Layer.lean ====
/-
  One graph-convolution layer on the extended reals, as one function of its arrays.

  A layer takes the node features `x` (10000 × 128), the dense adjacency `adj` (10000 × 10000) and a weight
  matrix `W` (256 × 128), and returns `relu ([x | adj·x] · W)`: row `p` of the concatenation holds the node's own
  128 features followed by the 128 aggregated ones, so entry `(p, q)` of the product is
      ∑ k<128, x (p,k) · W (k,q)  +  ∑ k<128, (∑ j, adj (p,j) · x (j,k)) · W (128+k, q),
  a sum over 256 positions cut at 128.  The cut is a regrouping of one finite sum in a commutative monoid, so it
  holds on every extended real, infinite entries included: nothing here assumes a finite input.

  The aggregated half may read a second copy `xb` of the features (a copy in another float format is the same
  array of extended reals), so the layer is stated over `adj`, `xb`, `x`, `W` and used with `xb = x`.
-/
import Idealize.ShloMosaic.Lib.ValueIdx
import Idealize.ShloMosaic.PureOps.Ideal.Laws
import Mathlib.Algebra.BigOperators.Fin

noncomputable section

open scoped BigOperators

namespace Cert.Sage

open Idealize.ShloMosaic Idealize.ShloMosaic.ValueIdx

/-- Row `k` of the upper half of a 256-row matrix. -/
abbrev lo (k : Fin 128) : Fin 256 := ⟨k.val, by have := k.isLt; omega⟩
/-- Row `128 + k`: row `k` of the lower half. -/
abbrev hi (k : Fin 128) : Fin 256 := ⟨128 + k.val, by have := k.isLt; omega⟩

/-- A sum over 256 positions is the sum over the first 128 plus the sum over the last 128 (in any commutative
    additive monoid: no subtraction, no finiteness). -/
theorem sum_halves {M : Type} [AddCommMonoid M] (f : Fin 256 → M) :
    ∑ k : Fin 256, f k = ∑ k : Fin 128, f (lo k) + ∑ k : Fin 128, f (hi k) :=
  Fin.sum_univ_add (a := 128) (b := 128) (f : Fin (128 + 128) → M)

/-- The aggregated feature `k` of node `p`: `∑ j, adj (p, j) · xb (j, k)`. -/
def agg (adj : FVec Ideal ⟨2, ![10000, 10000]⟩ .f32) (xb : (⟨2, ![10000, 128]⟩ : Shape).Idx → EReal)
    (p : Fin 10000) (k : Fin 128) : EReal :=
  ∑ j : Fin 10000, adj (ix2 p j) * xb (ix2 j k)

/-- Entry `(p, q)` of one layer: the own-feature half of the product, plus the aggregated half, clamped below at
    the float zero. -/
def layerAt (adj : FVec Ideal ⟨2, ![10000, 10000]⟩ .f32) (xb : (⟨2, ![10000, 128]⟩ : Shape).Idx → EReal)
    (x : FVec Ideal ⟨2, ![10000, 128]⟩ .f32) (W : FVec Ideal ⟨2, ![256, 128]⟩ .f32) (p : Fin 10000) (q : Fin 128) : EReal :=
  max (∑ k : Fin 128, x (ix2 p k) * W (ix2 (lo k) q) + ∑ k : Fin 128, agg adj xb p k * W (ix2 (hi k) q))
    (Ideal.ofBits .f32 0x00000000#32)

/-- One layer as a whole array. -/
def layer (adj : FVec Ideal ⟨2, ![10000, 10000]⟩ .f32) (xb : (⟨2, ![10000, 128]⟩ : Shape).Idx → EReal)
    (x : FVec Ideal ⟨2, ![10000, 128]⟩ .f32) (W : FVec Ideal ⟨2, ![256, 128]⟩ .f32) : FVec Ideal ⟨2, ![10000, 128]⟩ .f32 :=
  fun i => layerAt adj xb x W (i 0) (i 1)

theorem layer_apply (adj : FVec Ideal ⟨2, ![10000, 10000]⟩ .f32) (xb : (⟨2, ![10000, 128]⟩ : Shape).Idx → EReal)
    (x : FVec Ideal ⟨2, ![10000, 128]⟩ .f32) (W : FVec Ideal ⟨2, ![256, 128]⟩ .f32) (p : Fin 10000) (q : Fin 128) :
    layer adj xb x W (ix2 p q) = layerAt adj xb x W p q := rfl

/-- The network: two layers over one adjacency, the second reading the first's result. -/
def twoLayers (x : FVec Ideal ⟨2, ![10000, 128]⟩ .f32) (adj : FVec Ideal ⟨2, ![10000, 10000]⟩ .f32)
    (W1 W2 : FVec Ideal ⟨2, ![256, 128]⟩ .f32) : FVec Ideal ⟨2, ![10000, 128]⟩ .f32 :=
  layer adj (layer adj x x W1) (layer adj x x W1) W2

end Cert.Sage

end
-- ==== Proof.RefLayer.lean ====
/-
  The reference program's result is the two-layer network of `Layer.lean`.

  The reference computes a layer as written: the aggregate `adj · x` by a product, the concatenation of `x` and the
  aggregate along the feature axis, the product with the 256-row weight matrix, the maximum with zero.  Read at
  entry `(p, q)`: the second product is a sum over the 256 columns of the concatenation; a column below 128 reads
  `x (p, k)`, a column `128 + k` reads the aggregate at `(p, k)`, and the sum cut at 128 (`sum_halves`) is the
  layer's two halves.  The second layer is the same operations applied to the first layer's result.
-/
import proofs.«170938_g60533269070025_cont_9to1_m_1379_6_alg».proof.Proof.Gen.ReferenceIdeal.Read
import proofs.«170938_g60533269070025_cont_9to1_m_1379_6_alg».proof.Proof.Layer

noncomputable section

open scoped BigOperators

namespace Cert.Sage.Ref

open Cert.ReferenceIdeal Cert.ReferenceIdeal.Gen Cert.ReferenceIdeal.Read
open Idealize.ShloMosaic Idealize.ShloMosaic.ValueIdx Cert.Sage

/-- The contraction's left index at result entry `(p, q)`, position `k`: entry `(p, k)` of the concatenation. -/
theorem lidx_cat (p : Fin 10000) (q : Fin 128) (k : Fin 256) : lidx_main_v2 (ix2 p q) k = ix2 p k :=
  funext fun a => Fin.ext (by match a with | ⟨0, _⟩ => rfl | ⟨1, _⟩ => rfl)
/-- and its right index: entry `(k, q)` of the weights. -/
theorem ridx_cat (p : Fin 10000) (q : Fin 128) (k : Fin 256) : ridx_main_v2 (ix2 p q) k = ix2 k q :=
  funext fun a => Fin.ext (by match a with | ⟨0, _⟩ => rfl | ⟨1, _⟩ => rfl)
/-- The aggregate's left index at entry `(p, k)`, position `j`: entry `(p, j)` of the adjacency. -/
theorem lidx_agg (p : Fin 10000) (k : Fin 128) (j : Fin 10000) : lidx_main_v0 (ix2 p k) j = ix2 p j :=
  funext fun a => Fin.ext (by match a with | ⟨0, _⟩ => rfl | ⟨1, _⟩ => rfl)
/-- and its right index: entry `(j, k)` of the features. -/
theorem ridx_agg (p : Fin 10000) (k : Fin 128) (j : Fin 10000) : ridx_main_v0 (ix2 p k) j = ix2 j k :=
  funext fun a => Fin.ext (by match a with | ⟨0, _⟩ => rfl | ⟨1, _⟩ => rfl)

/-- The aggregate `adj · x` at entry `(p, k)`. -/
theorem agg_apply (x : FVec Ideal S10000x128 .f32) (adj : FVec Ideal S10000x10000 .f32) (p : Fin 10000) (k : Fin 128) :
    val_main_v0 (F := Ideal) x adj (ix2 p k) = agg adj x p k := by
  rw [val_main_v0_apply]
  unfold agg
  exact Finset.sum_congr rfl fun j _ => by rw [lidx_agg, ridx_agg]

/-- A column below 128 of the concatenation reads the features. -/
theorem cat_lo (x : FVec Ideal S10000x128 .f32) (adj : FVec Ideal S10000x10000 .f32) (p : Fin 10000) (k : Fin 128) :
    val_main_v1 (F := Ideal) x adj (ix2 p (lo k)) = x (ix2 p k) := by
  unfold val_main_v1
  exact concatenate_pair_apply_left (t := S10000x256) (s₁ := S10000x128) (s₂ := S10000x128) 1 _ _ _ (ix2 p (lo k)) rfl (ix2 p k)
    (fun b => by match b with | ⟨0, _⟩ => rfl | ⟨1, _⟩ => rfl)

/-- A column `128 + k` reads the aggregate at column `k`. -/
theorem cat_hi (x : FVec Ideal S10000x128 .f32) (adj : FVec Ideal S10000x10000 .f32) (p : Fin 10000) (k : Fin 128) :
    val_main_v1 (F := Ideal) x adj (ix2 p (hi k)) = agg adj x p k := by
  rw [← agg_apply]
  unfold val_main_v1
  exact concatenate_pair_apply_right (t := S10000x256) (s₁ := S10000x128) (s₂ := S10000x128) 1 _ _ _ (ix2 p (hi k)) rfl rfl (ix2 p k)
    (fun b hb => by match b with | ⟨0, _⟩ => rfl | ⟨1, _⟩ => exact absurd rfl hb)
    (by show k.val + 128 = 128 + k.val; omega)

/-- The reference's first layer (product, concatenation, product, maximum with zero) is `layer`. -/
theorem layer_eq (x : FVec Ideal S10000x128 .f32) (adj : FVec Ideal S10000x10000 .f32) (W : FVec Ideal S256x128 .f32) :
    val_main_v3 (F := Ideal) x adj W = layer adj x x W := by
  funext i
  obtain ⟨p, q, rfl⟩ : ∃ (p : Fin 10000) (q : Fin 128), i = ix2 p q := ⟨i 0, i 1, eq_ix2 i⟩
  rw [val_main_v3_apply, val_main_v2_apply, val_main_call0_v0_apply, val_main_call0_cst_apply, layer_apply, sum_halves]
  unfold layerAt
  simp only [lidx_cat, ridx_cat, cat_lo, cat_hi]
  rfl

/-- The reference's result: its second layer is the first's operations applied to the first's result. -/
theorem result_eq (x : FVec Ideal S10000x128 .f32) (adj : FVec Ideal S10000x10000 .f32) (W1 W2 : FVec Ideal S256x128 .f32) :
    val_main_v7 (F := Ideal) x adj W1 W2 = twoLayers x adj W1 W2 := by
  have h : val_main_v7 (F := Ideal) x adj W1 W2 = val_main_v3 (F := Ideal) (val_main_v3 (F := Ideal) x adj W1) adj W2 := rfl
  rw [h, layer_eq, layer_eq]
  rfl

end Cert.Sage.Ref

end
-- ==== Proof.LibPlainDot.lean ====
/-
  A plain matrix product read at one entry, on the extended reals.

  For the dimension numbers of an `M × K` by `K × N` product (the left operand contracted on its second axis, the
  right on its first, no batch axis: `DotDims.plain M K N`), the contraction runs over one axis of extent `K`, and
  at result entry `(p, q)` and contraction position `k` the left operand is read at `(p, k)` and the right at
  `(k, q)`. So the product into a zero accumulator, and equally the host's `dot_general`, is at `(p, q)` the sum
  `∑ k, L (p, k) · R (k, q)` over `Fin K`: no rounding, no chunk order, and no finiteness assumed (the sum is the
  extended reals' own). Any extents, any operand formats.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the result's row coordinate. -/
theorem lhs0 (j : (⟨2, ![M, N]⟩ : Shape).Idx) (k : (DotDims.plain M K N).contr.Idx) :
    ((DotDims.plain M K N).lhsIdx j k 0).val = (j 0).val := rfl
/-- The left operand's column coordinate is the contraction position. -/
theorem lhs1 (j : (⟨2, ![M, N]⟩ : Shape).Idx) (k : (DotDims.plain M K N).contr.Idx) :
    ((DotDims.plain M K N).lhsIdx j k 1).val = (k ⟨0, Nat.one_pos⟩).val := rfl
/-- The right operand's row coordinate is the contraction position. -/
theorem rhs0 (j : (⟨2, ![M, N]⟩ : Shape).Idx) (k : (DotDims.plain M K N).contr.Idx) :
    ((DotDims.plain M K N).rhsIdx j k 0).val = (k ⟨0, Nat.one_pos⟩).val := rfl
/-- The right operand's column coordinate is the result's column coordinate. -/
theorem rhs1 (j : (⟨2, ![M, N]⟩ : Shape).Idx) (k : (DotDims.plain M K N).contr.Idx) :
    ((DotDims.plain M K N).rhsIdx j k 1).val = (j 1).val := rfl

/-- The contraction's sum at entry `(p, q)`, re-indexed by the contraction axis's one coordinate. -/
theorem sum_apply {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 M K N _ _
      | ⟨1, _⟩ => exact (lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 M K N _ _).trans hk
      | ⟨1, _⟩ => exact rhs1 M K N _ _)
  rw [el, er]

/-- A matrix product into the zero accumulator, at entry `(p, q)`: `∑ k, L (p, k) · R (k, q)`. -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant (F := Ideal) ⟨2, ![M, N]⟩ .f32 0x00000000#32) (ix2 p q)
      = ∑ k : Fin K, L (ix2 p k) * R (ix2 k q) :=
  (Ideal.matmul_constant_zero_apply _ prec L R (ix2 p q)).trans (sum_apply M K N L R p q)

/-- The host's `dot_general` with the same dimension numbers, at entry `(p, q)`: the same sum. -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) :=
  (Ideal.dotGeneral_apply _ prec sched L R (ix2 p q)).trans (sum_apply M K N L R p q)

end Idealize.ShloMosaic.PlainDot

end
-- ==== Proof.KernelPayload.lean ====
/-
  The kernel body's stored value at one entry, on the extended reals.

  The body of either layer's kernel loads a 400-row block of the adjacency (`x0`), the whole feature array in its
  second copy (`x1`), the matching 400-row block of the features (`x2`) and the two 128-row halves of the weights
  (`wa`, `wb`); it multiplies the adjacency block by the features, multiplies the feature block by the upper half
  and the aggregate by the lower half of the weights, adds the two products and clamps at zero.  Each product into a
  zero accumulator is the plain sum over the contracted axis, a change of float format is the identity, and a cast
  to the same shape changes nothing; so entry `(p, q)` of the stored block is `blockAt` below.
-/
import proofs.«170938_g60533269070025_cont_9to1_m_1379_6_alg».proof.Proof.Gen.KernelIdeal.Skeleton
import proofs.«170938_g60533269070025_cont_9to1_m_1379_6_alg».proof.Proof.LibPlainDot
import proofs.«170938_g60533269070025_cont_9to1_m_1379_6_alg».proof.Proof.Layer
import Idealize.ShloMosaic.Lib.Pipeline.Value

noncomputable section

open scoped BigOperators

namespace Cert.Sage.Body

open Cert.KernelIdeal Cert.KernelIdeal.Gen Idealize.ShloMosaic Idealize.ShloMosaic.ValueIdx Cert.Sage

/-- Entry `(p, q)` of the block a grid point stores, from the blocks it loads. -/
def blockAt (x0 : Vec Ideal S400x10000 .f32) (x1 : Vec Ideal S10000x128 .bf16) (x2 : Vec Ideal S400x128 .f32)
    (wa wb : Vec Ideal S128x128 .f32) (p : Fin 400) (q : Fin 128) : EReal :=
  max (∑ k : Fin 128, x2 (ix2 p k) * wa (ix2 k q)
      + ∑ k : Fin 128, (∑ j : Fin 10000, x0 (ix2 p j) * x1 (ix2 j k)) * wb (ix2 k q))
    (Ideal.ofBits .f32 0x00000000#32)

/-- The aggregate of a block: (400 × 10000) · (10000 × 128) into zeros, at entry `(p, k)`. -/
theorem mm_agg (L : FVec Ideal S400x10000 .bf16) (R : FVec Ideal S10000x128 .bf16) (p : Fin 400) (k : Fin 128) :
    matmul dot_S400x10000_S10000x128_S400x128_1_0_0_1_n_n none L R (constant S400x128 .f32 0x00000000#32) (ix2 p k)
      = ∑ j : Fin 10000, L (ix2 p j) * R (ix2 j k) :=
  PlainDot.matmul_zero_apply 400 10000 128 none L R p k

/-- A block times one half of the weights: (400 × 128) · (128 × 128) into zeros, at entry `(p, q)`. -/
theorem mm_w (L : FVec Ideal S400x128 .f32) (R : FVec Ideal S128x128 .f32) (p : Fin 400) (q : Fin 128) :
    matmul dot_S400x128_S128x128_S400x128_1_0_0_1_n_n none L R (constant S400x128 .f32 0x00000000#32) (ix2 p q)
      = ∑ k : Fin 128, L (ix2 p k) * R (ix2 k q) :=
  PlainDot.matmul_zero_apply 400 128 128 none L R p q

/-- The first layer's stored block at entry `(p, q)`. -/
theorem pay0_apply (x0 : Vec Ideal S400x10000 .f32) (x1 : Vec Ideal S10000x128 .bf16) (x2 : Vec Ideal S400x128 .f32)
    (wa wb : Vec Ideal S128x128 .f32) (p : Fin 400) (q : Fin 128) :
    k0_pay1 x0 x1 x2 wa wb (ix2 p q) = blockAt x0 x1 x2 wa wb p q := by
  unfold k0_pay1 blockAt
  rw [shapeCast_self]
  show max (matmul dot_S400x128_S128x128_S400x128_1_0_0_1_n_n none x2 wa (constant S400x128 .f32 0x00000000#32) (ix2 p q)
      + matmul dot_S400x128_S128x128_S400x128_1_0_0_1_n_n none
          (matmul dot_S400x10000_S10000x128_S400x128_1_0_0_1_n_n none (x0 : FVec Ideal S400x10000 .bf16) x1 (constant S400x128 .f32 0x00000000#32))
          wb (constant S400x128 .f32 0x00000000#32) (ix2 p q))
    (Ideal.ofBits .f32 0x00000000#32) = _
  rw [mm_w, mm_w]
  simp only [mm_agg]

/-- The second layer's stored block at entry `(p, q)`: the same operations (its feature block passes through one
    more cast to its own shape). -/
theorem pay1_apply (x0 : Vec Ideal S400x10000 .f32) (x1 : Vec Ideal S10000x128 .bf16) (x2 : Vec Ideal S400x128 .f32)
    (wa wb : Vec Ideal S128x128 .f32) (p : Fin 400) (q : Fin 128) :
    k1_pay1 x0 x1 x2 wa wb (ix2 p q) = blockAt x0 x1 x2 wa wb p q := by
  unfold k1_pay1 blockAt
  rw [shapeCast_self, shapeCast_self]
  show max (matmul dot_S400x128_S128x128_S400x128_1_0_0_1_n_n none x2 wa (constant S400x128 .f32 0x00000000#32) (ix2 p q)
      + matmul dot_S400x128_S128x128_S400x128_1_0_0_1_n_n none
          (matmul dot_S400x10000_S10000x128_S400x128_1_0_0_1_n_n none (x0 : FVec Ideal S400x10000 .bf16) x1 (constant S400x128 .f32 0x00000000#32))
          wb (constant S400x128 .f32 0x00000000#32) (ix2 p q))
    (Ideal.ofBits .f32 0x00000000#32) = _
  rw [mm_w, mm_w]
  simp only [mm_agg]

/-- A stored block entry is the layer's entry at the array row the block's row `p` sits at (`r`), once each loaded
    block is read where it lies in its array: the adjacency block's row `p` is the adjacency's row `r`, the feature
    block's row `p` the features' row `r`, the second feature copy whole, the two weight blocks the upper and
    lower halves of the weights. -/
theorem blockAt_eq_layerAt (adj : FVec Ideal ⟨2, ![10000, 10000]⟩ .f32) (xb : (⟨2, ![10000, 128]⟩ : Shape).Idx → EReal)
    (x : FVec Ideal ⟨2, ![10000, 128]⟩ .f32) (W : FVec Ideal ⟨2, ![256, 128]⟩ .f32)
    (x0 : Vec Ideal S400x10000 .f32) (x1 : Vec Ideal S10000x128 .bf16) (x2 : Vec Ideal S400x128 .f32)
    (wa wb : Vec Ideal S128x128 .f32) (r : Fin 10000) (p : Fin 400) (q : Fin 128)
    (h0 : ∀ j : Fin 10000, x0 (ix2 p j) = adj (ix2 r j)) (h1 : ∀ (j : Fin 10000) (k : Fin 128), x1 (ix2 j k) = xb (ix2 j k))
    (h2 : ∀ k : Fin 128, x2 (ix2 p k) = x (ix2 r k))
    (ha : ∀ k : Fin 128, wa (ix2 k q) = W (ix2 (lo k) q)) (hb : ∀ k : Fin 128, wb (ix2 k q) = W (ix2 (hi k) q)) :
    blockAt x0 x1 x2 wa wb p q = layerAt adj xb x W r q := by
  unfold blockAt layerAt agg
  simp only [h0, h1, h2, ha, hb]

end Cert.Sage.Body

end
-- ==== Proof.KernelBlocks.lean ====
/-
  From blocks to arrays: what each layer's region leaves in its result array.

  Each layer runs on a grid of 25 points.  Point `t` loads rows `400·t … 400·t + 399` of the adjacency and of the
  features, the whole second copy of the features and the whole weight matrix, and writes back rows
  `400·t … 400·t + 399` of the result.  So what point `t` writes back is block `t` of ONE whole-array function of the
  region's arrays — `layer` of `Layer.lean` —, the 25 row bands cover the result array, and the array after the region is
  that function.  Everything is stated at arbitrary contents `V` of the buffers at the region's entry; the run instantiates
  it at what each region finds.
-/
import proofs.«170938_g60533269070025_cont_9to1_m_1379_6_alg».proof.Proof.Gen.KernelIdeal.Frame
import proofs.«170938_g60533269070025_cont_9to1_m_1379_6_alg».proof.Proof.KernelPayload
import Idealize.ShloMosaic.Lib.Pipeline.Value

set_option maxRecDepth 16384

noncomputable section

open scoped BigOperators

namespace Cert.Sage.Blocks

open Cert.KernelIdeal Cert.KernelIdeal.Gen Idealize.ShloMosaic Idealize.ShloMosaic.TcCoe Idealize.SL.Sem
open Idealize.ShloMosaic.ValueIdx Cert.Sage Cert.Sage.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first layer's region -/

/-- The first layer's index maps over its 25 grid points: the adjacency block, the feature block and the result block
    of point `t` are the `t`-th 400-row bands of their arrays; the second feature copy and the weights are whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 25 :=
  (by decide +kernel : ∀ t : Fin grid0.N, _)

/-- What point `t` of the first layer writes back is block `t` of `layer` of the arrays as the region finds them: the
    stored block's entry `(p, q)` is the layer's entry at array row `400·t + p`, each loaded block read where it lies. -/
theorem flushed0_eq (c : Dev nD) (t : Fin cfg0.N) :
    (dat0 V c).flushed 4 t = ((cfg0.win 4).blk t).view.read (Elt Ideal)
      (layer (V c main_arg1) (V c main_call0_v0) (V c main_arg0) (V c main_arg2)) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x128) hz, View.ld_unit_zero (S := S400x128) hz]
  obtain ⟨e00, e01, e10, e11, e20, e21, e30, e31, e40, e41, ht⟩ := idx0 t
  funext j
  obtain ⟨p, q, rfl⟩ : ∃ (p : Fin 400) (q : Fin 128), j = ix2 p q := ⟨j 0, j 1, eq_ix2 (n0 := 400) (n1 := 128) j⟩
  have hr : t.val * 400 + p.val < 10000 := by have := p.isLt; omega
  show k0_pay1 (iblk0 V c 0 t) (iblk0 V c 1 t) (iblk0 V c 2 t) (View.ld (iblk0 V c 3 t) r0_3) (View.ld (iblk0 V c 3 t) r0_4) (ix2 p q)
    = layer (V c main_arg1) (V c main_call0_v0) (V c main_arg0) (V c main_arg2) (((cfg0.win 4).blk t).view.emb (ix2 p q))
  have he : ((cfg0.win 4).blk t).view.emb (ix2 p q) = ix2 (⟨t.val * 400 + p.val, hr⟩ : Fin 10000) q := by
    funext a; apply Fin.ext
    match a with
    | ⟨0, _⟩ => show win0_4.index t (0 : Fin 2) * 400 + 1 * p.val = t.val * 400 + p.val; omega
    | ⟨1, _⟩ => show win0_4.index t (1 : Fin 2) * 128 + 1 * q.val = q.val; omega
  rw [he, layer_apply]
  refine (pay0_apply (iblk0 V c 0 t) (iblk0 V c 1 t) (iblk0 V c 2 t) (View.ld (iblk0 V c 3 t) r0_3) (View.ld (iblk0 V c 3 t) r0_4) p q).trans ?_
  refine blockAt_eq_layerAt (V c main_arg1) (V c main_call0_v0) (V c main_arg0) (V c main_arg2)
    (iblk0 V c 0 t) (iblk0 V c 1 t) (iblk0 V c 2 t) (View.ld (iblk0 V c 3 t) r0_3) (View.ld (iblk0 V c 3 t) r0_4)
    ⟨t.val * 400 + p.val, hr⟩ p q ?_ ?_ ?_ ?_ ?_
  · intro j
    show V c main_arg1 (((cfg0.win 0).blk t).view.emb (ix2 p j)) = _
    refine congrArg (V c main_arg1) (funext fun a => Fin.ext ?_)
    match a with
    | ⟨0, _⟩ => show win0_0.index t (0 : Fin 2) * 400 + 1 * p.val = t.val * 400 + p.val; omega
    | ⟨1, _⟩ => show win0_0.index t (1 : Fin 2) * 10000 + 1 * j.val = j.val; omega
  · intro j k
    show V c main_call0_v0 (((cfg0.win 1).blk t).view.emb (ix2 j k)) = _
    refine congrArg (V c main_call0_v0) (funext fun a => Fin.ext ?_)
    match a with
    | ⟨0, _⟩ => show win0_1.index t (0 : Fin 2) * 10000 + 1 * j.val = j.val; omega
    | ⟨1, _⟩ => show win0_1.index t (1 : Fin 2) * 128 + 1 * k.val = k.val; omega
  · intro k
    show V c main_arg0 (((cfg0.win 2).blk t).view.emb (ix2 p k)) = _
    refine congrArg (V c main_arg0) (funext fun a => Fin.ext ?_)
    match a with
    | ⟨0, _⟩ => show win0_2.index t (0 : Fin 2) * 400 + 1 * p.val = t.val * 400 + p.val; omega
    | ⟨1, _⟩ => show win0_2.index t (1 : Fin 2) * 128 + 1 * k.val = k.val; omega
  · intro k
    show V c main_arg2 (((cfg0.win 3).blk t).view.emb (r0_3.idx (ix2 k q))) = _
    refine congrArg (V c main_arg2) (funext fun a => Fin.ext ?_)
    match a with
    | ⟨0, _⟩ => show win0_3.index t (0 : Fin 2) * 256 + 1 * (0 + 1 * k.val) = k.val; omega
    | ⟨1, _⟩ => show win0_3.index t (1 : Fin 2) * 128 + 1 * (0 + 1 * q.val) = q.val; omega
  · intro k
    show V c main_arg2 (((cfg0.win 3).blk t).view.emb (r0_4.idx (ix2 k q))) = _
    refine congrArg (V c main_arg2) (funext fun a => Fin.ext ?_)
    match a with
    | ⟨0, _⟩ => show win0_3.index t (0 : Fin 2) * 256 + 1 * (128 + 1 * k.val) = 128 + k.val; omega
    | ⟨1, _⟩ => show win0_3.index t (1 : Fin 2) * 128 + 1 * (0 + 1 * q.val) = q.val; omega

/-- An index of the result array lies in point `t`'s block iff each coordinate lies in the block's range on its axis. -/
theorem mem_blk0 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_call0_v1).slice (win0_4.rect t)).set ↔ _
  rw [View.set_slice_whole, Rect.mem_set_unit]
  exact Iff.rfl

/-- Every row lies in the band of the point `row / 400`, and every point writes back. -/
theorem cover0 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : (i 0).val / 400 < cfg0.N := by rw [show cfg0.N = 25 from N_0]; omega
  obtain ⟨e00, e01, e10, e11, e20, e21, e30, e31, e40, e41, ht⟩ := idx0 ⟨(i 0).val / 400, hN⟩
  refine ⟨⟨(i 0).val / 400, hN⟩, flush0_4 _, ?_⟩
  rw [mem_blk0]
  intro a
  match a with
  | ⟨0, _⟩ =>
    show win0_4.index ⟨(i 0).val / 400, hN⟩ (0 : Fin 2) * 400 ≤ (i 0).val ∧ (i 0).val < win0_4.index ⟨(i 0).val / 400, hN⟩ (0 : Fin 2) * 400 + 400
    rw [e40]; show (i 0).val / 400 * 400 ≤ (i 0).val ∧ (i 0).val < (i 0).val / 400 * 400 + 400; omega
  | ⟨1, _⟩ =>
    show win0_4.index ⟨(i 0).val / 400, hN⟩ (1 : Fin 2) * 128 ≤ (i 1).val ∧ (i 1).val < win0_4.index ⟨(i 0).val / 400, hN⟩ (1 : Fin 2) * 128 + 128
    rw [e41]; omega

/-- The first layer's result array after its region, from the arrays as the region finds them. -/
theorem final0 (c : Dev nD) :
    (dat0 V c).arrAt 4 cfg0.N = layer (V c main_arg1) (V c main_call0_v0) (V c main_arg0) (V c main_arg2) :=
  (dat0 V c).arrAt_eq_of_cover 4 _ (fun t _ => flushed0_eq V c t) cover0

/-! ## The second layer's region -/

/-- The second layer's index maps over its 25 grid points: the adjacency block, the feature block and the result block
    of point `t` are the `t`-th 400-row bands of their arrays; the second feature copy and the weights are whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 25 :=
  (by decide +kernel : ∀ t : Fin grid1.N, _)

/-- What point `t` of the second layer writes back is block `t` of `layer` of the arrays as the region finds them: the
    stored block's entry `(p, q)` is the layer's entry at array row `400·t + p`, each loaded block read where it lies. -/
theorem flushed1_eq (c : Dev nD) (t : Fin cfg1.N) :
    (dat1 V c).flushed 4 t = ((cfg1.win 4).blk t).view.read (Elt Ideal)
      (layer (V c main_arg1) (V c main_call0_v2) (V c main_call0_v1) (V c main_arg3)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S400x128) hz]
  obtain ⟨e00, e01, e10, e11, e20, e21, e30, e31, e40, e41, ht⟩ := idx1 t
  funext j
  obtain ⟨p, q, rfl⟩ : ∃ (p : Fin 400) (q : Fin 128), j = ix2 p q := ⟨j 0, j 1, eq_ix2 (n0 := 400) (n1 := 128) j⟩
  have hr : t.val * 400 + p.val < 10000 := by have := p.isLt; omega
  show k1_pay1 (iblk1 V c 0 t) (iblk1 V c 1 t) (iblk1 V c 2 t) (View.ld (iblk1 V c 3 t) r1_3) (View.ld (iblk1 V c 3 t) r1_4) (ix2 p q)
    = layer (V c main_arg1) (V c main_call0_v2) (V c main_call0_v1) (V c main_arg3) (((cfg1.win 4).blk t).view.emb (ix2 p q))
  have he : ((cfg1.win 4).blk t).view.emb (ix2 p q) = ix2 (⟨t.val * 400 + p.val, hr⟩ : Fin 10000) q := by
    funext a; apply Fin.ext
    match a with
    | ⟨0, _⟩ => show win1_4.index t (0 : Fin 2) * 400 + 1 * p.val = t.val * 400 + p.val; omega
    | ⟨1, _⟩ => show win1_4.index t (1 : Fin 2) * 128 + 1 * q.val = q.val; omega
  rw [he, layer_apply]
  refine (pay1_apply (iblk1 V c 0 t) (iblk1 V c 1 t) (iblk1 V c 2 t) (View.ld (iblk1 V c 3 t) r1_3) (View.ld (iblk1 V c 3 t) r1_4) p q).trans ?_
  refine blockAt_eq_layerAt (V c main_arg1) (V c main_call0_v2) (V c main_call0_v1) (V c main_arg3)
    (iblk1 V c 0 t) (iblk1 V c 1 t) (iblk1 V c 2 t) (View.ld (iblk1 V c 3 t) r1_3) (View.ld (iblk1 V c 3 t) r1_4)
    ⟨t.val * 400 + p.val, hr⟩ p q ?_ ?_ ?_ ?_ ?_
  · intro j
    show V c main_arg1 (((cfg1.win 0).blk t).view.emb (ix2 p j)) = _
    refine congrArg (V c main_arg1) (funext fun a => Fin.ext ?_)
    match a with
    | ⟨0, _⟩ => show win1_0.index t (0 : Fin 2) * 400 + 1 * p.val = t.val * 400 + p.val; omega
    | ⟨1, _⟩ => show win1_0.index t (1 : Fin 2) * 10000 + 1 * j.val = j.val; omega
  · intro j k
    show V c main_call0_v2 (((cfg1.win 1).blk t).view.emb (ix2 j k)) = _
    refine congrArg (V c main_call0_v2) (funext fun a => Fin.ext ?_)
    match a with
    | ⟨0, _⟩ => show win1_1.index t (0 : Fin 2) * 10000 + 1 * j.val = j.val; omega
    | ⟨1, _⟩ => show win1_1.index t (1 : Fin 2) * 128 + 1 * k.val = k.val; omega
  · intro k
    show V c main_call0_v1 (((cfg1.win 2).blk t).view.emb (ix2 p k)) = _
    refine congrArg (V c main_call0_v1) (funext fun a => Fin.ext ?_)
    match a with
    | ⟨0, _⟩ => show win1_2.index t (0 : Fin 2) * 400 + 1 * p.val = t.val * 400 + p.val; omega
    | ⟨1, _⟩ => show win1_2.index t (1 : Fin 2) * 128 + 1 * k.val = k.val; omega
  · intro k
    show V c main_arg3 (((cfg1.win 3).blk t).view.emb (r1_3.idx (ix2 k q))) = _
    refine congrArg (V c main_arg3) (funext fun a => Fin.ext ?_)
    match a with
    | ⟨0, _⟩ => show win1_3.index t (0 : Fin 2) * 256 + 1 * (0 + 1 * k.val) = k.val; omega
    | ⟨1, _⟩ => show win1_3.index t (1 : Fin 2) * 128 + 1 * (0 + 1 * q.val) = q.val; omega
  · intro k
    show V c main_arg3 (((cfg1.win 3).blk t).view.emb (r1_4.idx (ix2 k q))) = _
    refine congrArg (V c main_arg3) (funext fun a => Fin.ext ?_)
    match a with
    | ⟨0, _⟩ => show win1_3.index t (0 : Fin 2) * 256 + 1 * (128 + 1 * k.val) = 128 + k.val; omega
    | ⟨1, _⟩ => show win1_3.index t (1 : Fin 2) * 128 + 1 * (0 + 1 * q.val) = q.val; omega

/-- An index of the result array lies in point `t`'s block iff each coordinate lies in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v0).slice (win1_4.rect t)).set ↔ _
  rw [View.set_slice_whole, Rect.mem_set_unit]
  exact Iff.rfl

/-- Every row lies in the band of the point `row / 400`, and every point writes back. -/
theorem cover1 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : (i 0).val / 400 < cfg1.N := by rw [show cfg1.N = 25 from N_1]; omega
  obtain ⟨e00, e01, e10, e11, e20, e21, e30, e31, e40, e41, ht⟩ := idx1 ⟨(i 0).val / 400, hN⟩
  refine ⟨⟨(i 0).val / 400, hN⟩, flush1_4 _, ?_⟩
  rw [mem_blk1]
  intro a
  match a with
  | ⟨0, _⟩ =>
    show win1_4.index ⟨(i 0).val / 400, hN⟩ (0 : Fin 2) * 400 ≤ (i 0).val ∧ (i 0).val < win1_4.index ⟨(i 0).val / 400, hN⟩ (0 : Fin 2) * 400 + 400
    rw [e40]; show (i 0).val / 400 * 400 ≤ (i 0).val ∧ (i 0).val < (i 0).val / 400 * 400 + 400; omega
  | ⟨1, _⟩ =>
    show win1_4.index ⟨(i 0).val / 400, hN⟩ (1 : Fin 2) * 128 ≤ (i 1).val ∧ (i 1).val < win1_4.index ⟨(i 0).val / 400, hN⟩ (1 : Fin 2) * 128 + 128
    rw [e41]; omega

/-- The second layer's result array after its region, from the arrays as the region finds them. -/
theorem final1 (c : Dev nD) :
    (dat1 V c).arrAt 4 cfg1.N = layer (V c main_arg1) (V c main_call0_v2) (V c main_call0_v1) (V c main_arg3) :=
  (dat1 V c).arrAt_eq_of_cover 4 _ (fun t _ => flushed1_eq V c t) cover1

end Cert.Sage.Blocks

end
-- ==== Proof.KernelRun.lean ====
/-
  The kernel program's run, with its result named and read back to the launch arrays.

  The program is two kernel regions between two one-line host stretches: the features are copied into a second
  float format, the first layer's region runs, its result is copied into the second format, the second layer's
  region runs.  The run below is the program's frame run with one more reading at the end: besides the four
  arguments, the result buffer holds what the second region's write-backs leave in it.  Walking back through the
  segments — the second region's array is `layer` of what it finds (`KernelBlocks.lean`), the host copy is the
  identity on the extended reals, the first region's array is `layer` of the launch arrays — the result is
  `twoLayers` of the four launch arrays.
-/
import proofs.«170938_g60533269070025_cont_9to1_m_1379_6_alg».proof.Proof.Gen.KernelIdeal.Frame
import proofs.«170938_g60533269070025_cont_9to1_m_1379_6_alg».proof.Proof.KernelBlocks
import Idealize.ShloMosaic.Lib.StableHlo.Run

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its result named: every weakly fair execution terminates without a fault, the result
    array ends at the contents the last region leaves in it, and the four arguments end as launched. -/
theorem run_named : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-! ## The arrays each region finds -/

/-- Entering the first region, the adjacency, the features and the first weights are as launched: the one host
    operation before it writes none of them. -/
theorem V1_adj (c : Dev nD) : V1 m ρ c main_arg1 = m ((c : Thread nD τ).loc main_arg1) := by
  show StableHlo.after hostOps0 (W0 m ρ c) (Proc.devRef .tc main_arg1) = _
  after_results <;> rfl
theorem V1_x (c : Dev nD) : V1 m ρ c main_arg0 = m ((c : Thread nD τ).loc main_arg0) := by
  show StableHlo.after hostOps0 (W0 m ρ c) (Proc.devRef .tc main_arg0) = _
  after_results <;> rfl
theorem V1_w1 (c : Dev nD) : V1 m ρ c main_arg2 = m ((c : Thread nD τ).loc main_arg2) := by
  show StableHlo.after hostOps0 (W0 m ρ c) (Proc.devRef .tc main_arg2) = _
  after_results <;> rfl
theorem V1_w2 (c : Dev nD) : V1 m ρ c main_arg3 = m ((c : Thread nD τ).loc main_arg3) := by
  show StableHlo.after hostOps0 (W0 m ρ c) (Proc.devRef .tc main_arg3) = _
  after_results <;> rfl
/-- The second copy of the features is their change of format. -/
theorem V1_xb (c : Dev nD) : V1 m ρ c main_call0_v0 = truncf .bf16 (m ((c : Thread nD τ).loc main_arg0)) bitsLt_bf16_f32 := by
  show StableHlo.after hostOps0 (W0 m ρ c) (Proc.devRef .tc main_call0_v0) = _
  after_results <;> rfl

/-- Leaving the first region, the adjacency is as launched (an input window's array is never written back), -/
theorem W2_adj (c : Dev nD) : W2 m ρ c (Proc.devRef .tc main_arg1) = m ((c : Thread nD τ).loc main_arg1) :=
  (W2_arr m ρ c 0).trans (((dat0 (V1 m ρ) c).arrAt_in 0 rfl _).trans ((A_eq0 (V1 m ρ) c 0).trans (V1_adj m ρ c)))
/-- the second weights, which the region does not touch, are as launched, -/
theorem W2_w2 (c : Dev nD) : W2 m ρ c (Proc.devRef .tc main_arg3) = m ((c : Thread nD τ).loc main_arg3) :=
  (W2_of_ne m ρ c main_arg3 (by decide)).trans (V1_w2 m ρ c)
/-- and its result array holds what its write-backs leave. -/
theorem W2_h (c : Dev nD) : W2 m ρ c (Proc.devRef .tc main_call0_v1) = (dat0 (V1 m ρ) c).arrAt 4 cfg0.N :=
  W2_arr m ρ c 4

/-- Entering the second region: the adjacency and the second weights as launched, the first layer's result as the
    first region left it, and its second copy the change of format of that. -/
theorem V3_adj (c : Dev nD) : V3 m ρ c main_arg1 = m ((c : Thread nD τ).loc main_arg1) := by
  show StableHlo.after hostOps1 (W2 m ρ c) (Proc.devRef .tc main_arg1) = _
  after_results
  exact W2_adj m ρ c
theorem V3_w2 (c : Dev nD) : V3 m ρ c main_arg3 = m ((c : Thread nD τ).loc main_arg3) := by
  show StableHlo.after hostOps1 (W2 m ρ c) (Proc.devRef .tc main_arg3) = _
  after_results
  exact W2_w2 m ρ c
theorem V3_h (c : Dev nD) : V3 m ρ c main_call0_v1 = (dat0 (V1 m ρ) c).arrAt 4 cfg0.N := by
  show StableHlo.after hostOps1 (W2 m ρ c) (Proc.devRef .tc main_call0_v1) = _
  after_results
  exact W2_h m ρ c
theorem V3_hb (c : Dev nD) : V3 m ρ c main_call0_v2 = truncf .bf16 ((dat0 (V1 m ρ) c).arrAt 4 cfg0.N) bitsLt_bf16_f32 := by
  show StableHlo.after hostOps1 (W2 m ρ c) (Proc.devRef .tc main_call0_v2) = _
  after_results
  rw [W2_h]
  rfl

end Cert.Sage.Run

/-! ## The result, at the extended reals -/

namespace Cert.Sage.Run

open Cert.KernelIdeal Cert.KernelIdeal.Gen
open Idealize.ShloMosaic Idealize.ShloMosaic.TcCoe Idealize.SL.Sem Cert.Sage

variable (m : (ℓ : Loc nD τ sig) → Buf (Elt Ideal) ℓ) (ρ : Dev nD → PrngReg)

/-- The first layer's result array: `layer` of the launch arrays (its second feature copy is the features). -/
theorem first_eq (c : Dev nD) :
    (dat0 (V1 m ρ) c).arrAt 4 cfg0.N
      = layer (m ((c : Thread nD τ).loc main_arg1)) (m ((c : Thread nD τ).loc main_arg0)) (m ((c : Thread nD τ).loc main_arg0))
          (m ((c : Thread nD τ).loc main_arg2)) := by
  rw [Blocks.final0 (V1 m ρ) c, V1_adj, V1_xb, V1_x, V1_w1]
  rfl

/-- The program's result array: the two-layer network of the launch arrays. -/
theorem result_eq (c : Dev nD) :
    W4 m ρ c (Proc.devRef .tc main_v0)
      = twoLayers (m ((c : Thread nD τ).loc main_arg0)) (m ((c : Thread nD τ).loc main_arg1))
          (m ((c : Thread nD τ).loc main_arg2)) (m ((c : Thread nD τ).loc main_arg3)) := by
  rw [show W4 m ρ c (Proc.devRef .tc main_v0) = (dat1 (V3 m ρ) c).arrAt 4 cfg1.N from W4_arr m ρ c 4,
    Blocks.final1 (V3 m ρ) c, V3_adj, V3_hb, V3_h, V3_w2, first_eq]
  rfl

end Cert.Sage.Run

end
-- ==== Proof.lean ====
/-
  The certificate of a two-layer graph-convolution kernel against its reference.

  Both programs compute, twice over one dense adjacency, `relu ([x | adj·x] · W)`.  The reference forms the
  concatenation and multiplies it by the 256-row weight matrix; the kernel, 400 rows at a time, multiplies the features
  by the upper half of the weights and the aggregate by the lower half and adds.  On the extended reals the two are
  one finite sum cut at position 128 (`Layer.lean`, `sum_halves`), so they agree on every input: the precondition
  is never opened.  A change of float format is the identity there, so the kernel's second copies of the features
  are the features.

  The three frames: the two kernel programs' are their generated frame certificates; the reference has no kernel
  and its frame is its generated run with the result dropped.  The idealized kernel is the kernel's own text read at
  the extended reals (no rewrite was made), so that conjunct is trivial.  The value conjunct sets the kernel's run with
  its result named (`KernelRun.lean`: the result array is `twoLayers` of the launch arrays) beside the reference's
  generated run, whose term is the same function (`RefLayer.lean`).
-/
import proofs.«170938_g60533269070025_cont_9to1_m_1379_6_alg».proof.Defs
import proofs.«170938_g60533269070025_cont_9to1_m_1379_6_alg».proof.Proof.Gen.Kernel
import proofs.«170938_g60533269070025_cont_9to1_m_1379_6_alg».proof.Proof.Gen.Kernel.Skeleton
import proofs.«170938_g60533269070025_cont_9to1_m_1379_6_alg».proof.Proof.Gen.Kernel.Launch
import proofs.«170938_g60533269070025_cont_9to1_m_1379_6_alg».proof.Proof.Gen.Kernel.Points
import proofs.«170938_g60533269070025_cont_9to1_m_1379_6_alg».proof.Proof.Gen.Kernel.Frame
import proofs.«170938_g60533269070025_cont_9to1_m_1379_6_alg».proof.Proof.Gen.KernelIdeal
import proofs.«170938_g60533269070025_cont_9to1_m_1379_6_alg».proof.Proof.Gen.KernelIdeal.Skeleton
import proofs.«170938_g60533269070025_cont_9to1_m_1379_6_alg».proof.Proof.Gen.KernelIdeal.Launch
import proofs.«170938_g60533269070025_cont_9to1_m_1379_6_alg».proof.Proof.Gen.KernelIdeal.Points
import proofs.«170938_g60533269070025_cont_9to1_m_1379_6_alg».proof.Proof.Gen.KernelIdeal.Frame
import proofs.«170938_g60533269070025_cont_9to1_m_1379_6_alg».proof.Proof.Gen.ReferenceIdeal
import proofs.«170938_g60533269070025_cont_9to1_m_1379_6_alg».proof.Proof.Gen.Pre_finite_inputs
import proofs.«170938_g60533269070025_cont_9to1_m_1379_6_alg».proof.Proof.Gen.ReferenceIdeal.Run
import proofs.«170938_g60533269070025_cont_9to1_m_1379_6_alg».proof.Proof.Gen.ReferenceIdeal.Read
import proofs.«170938_g60533269070025_cont_9to1_m_1379_6_alg».proof.Proof.RefLayer
import proofs.«170938_g60533269070025_cont_9to1_m_1379_6_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the result array at `twoLayers` of those
    arguments: the kernel's by its run read back through both regions, the reference's by its run's term. -/
theorem algebraic : Cert.algebraic_KernelIdeal_ReferenceIdeal := by
  intro m ρ m' ρ' _ hagree
  refine ⟨fun c => Cert.Sage.twoLayers (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Sage.Run.result_eq m ρ c), (h c).2⟩) (Cert.Sage.Run.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.Sage.Ref.result_eq, (hagree c).1, (hagree c).2.1, (hagree c).2.2.1,
      (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
